-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S3200000 : Shape := ⟨1, ![3200000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_arg7 : FVec F S512x1 .f32) (main_arg8 : FVec F S1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S512x1 .f32 := Host.absf main_arg7
  let main_cst_8 : FVec F S_ .f32 := constant S_ .f32 0x7F800000#32
  let main_v25 : FVec F S512x1 .f32 := broadcastInDim S512x1 ![] bcast_S_S512x1 main_cst_8
  let main_v26 : IVec S512x1 1 := cmpf .olt main_v24 main_v25
  let main_c_9 : IVec S_ 1 := constantI S_ 1 1#1
  let main_v27 : IVec S_ 1 := (fun x v => Host.reduce IntOp.andi x v reducesTo_S512x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x512 .f32) (main_arg1 : IVec S3200000 32) (main_arg2 : IVec S3200000 32) (main_arg3 : FVec F S512x512 .f32) (main_arg4 : FVec F S512 .f32) (main_arg5 : FVec F S512x1 .f32) (main_arg6 : FVec F S1 .f32) (main_arg7 : FVec F S512x1 .f32) (main_arg8 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1 .f32 := Host.absf main_arg5
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg6 main_arg7 main_arg8 main_v13 main_v16
-- ==== Kernel.lean ====
abbrev S100000x512 : Shape := ⟨2, ![100000, 512]⟩
abbrev S3200000 : Shape := ⟨1, ![3200000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S_ : Shape := ⟨0, ![]⟩
abbrev S512x128 : Shape := ⟨2, ![512, 128]⟩
abbrev S1x128 : Shape := ⟨2, ![1, 128]⟩
abbrev S2 : Shape := ⟨1, ![2]⟩
abbrev S100000x128 : Shape := ⟨2, ![100000, 128]⟩
abbrev S2000x512 : Shape := ⟨2, ![2000, 512]⟩
abbrev S2000x128 : Shape := ⟨2, ![2000, 128]⟩
abbrev S100000x1 : Shape := ⟨2, ![100000, 1]⟩
abbrev S3200000x1 : Shape := ⟨2, ![3200000, 1]⟩

abbrev nBuf : Space → Nat
  | .hbm => 55
  | .vmem => 8
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S512x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S512x1, .f32⟩
  | .hbm, ⟨8, _⟩ => ⟨S1, .f32⟩
  | .hbm, ⟨9, _⟩ => ⟨S512x512, .bf16⟩
  | .hbm, ⟨10, _⟩ => ⟨S1x512, .f32⟩
  | .hbm, ⟨11, _⟩ => ⟨S_, .f32⟩
  | .hbm, ⟨12, _⟩ => ⟨S512x128, .f32⟩
  | .hbm, ⟨13, _⟩ => ⟨S512, .f32⟩
  | .hbm, ⟨14, _⟩ => ⟨S_, .i32⟩
  | .hbm, ⟨15, _⟩ => ⟨S1, .i32⟩
  | .hbm, ⟨16, _⟩ => ⟨S512x128, .f32⟩
  | .hbm, ⟨17, _⟩ => ⟨S512, .f32⟩
  | .hbm, ⟨18, _⟩ => ⟨S_, .i32⟩
  | .hbm, ⟨19, _⟩ => ⟨S1, .i32⟩
  | .hbm, ⟨20, _⟩ => ⟨S512x128, .f32⟩
  | .hbm, ⟨21, _⟩ => ⟨S512x128, .bf16⟩
  | .hbm, ⟨22, _⟩ => ⟨S_, .f32⟩
  | .hbm, ⟨23, _⟩ => ⟨S1x128, .f32⟩
  | .hbm, ⟨24, _⟩ => ⟨S_, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S_, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S1x128, .f32⟩
  | .hbm, ⟨38, _⟩ => ⟨S100000x128, .f32⟩
  | .hbm, ⟨39, _⟩ => ⟨S100000x1, .f32⟩
  | .hbm, ⟨40, _⟩ => ⟨S100000x1, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x1, .f32⟩
  | .hbm, ⟨50, _⟩ => ⟨S_, .f32⟩
  | .hbm, ⟨51, _⟩ => ⟨S100000x1, .f32⟩
  | .hbm, ⟨52, _⟩ => ⟨S3200000x1, .i32⟩
  | .hbm, ⟨53, _⟩ => ⟨S100000x1, .f32⟩
  | .hbm, ⟨54, _⟩ => ⟨S100000x1, .f32⟩
  | .local _ .vmem, ⟨0, _⟩ => ⟨S2000x512, .f32⟩
  | .local _ .vmem, ⟨1, _⟩ => ⟨S2000x512, .f32⟩
  | .local _ .vmem, ⟨2, _⟩ => ⟨S512x512, .bf16⟩
  | .local _ .vmem, ⟨3, _⟩ => ⟨S1x512, .f32⟩
  | .local _ .vmem, ⟨4, _⟩ => ⟨S512x128, .bf16⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S512_S1x512 : S512.ShapeCasts S1x512
  bcast_S_S512x128 : S_.BroadcastsInDim S512x128 (![] : Fin 0 → Fin S512x128.rank)
  shapeCasts_S512x1_S512 : S512x1.ShapeCasts S512
  bcast_S_S1 : S_.BroadcastsInDim S1 (![] : Fin 0 → Fin S1.rank)
  bcast_S_S1x128 : S_.BroadcastsInDim S1x128 (![] : Fin 0 → Fin S1x128.rank)
  shapeCasts_S1_S_ : S1.ShapeCasts S_
  concatenates_S1_S1_S2_d0 : Shape.Concatenates [S1, S1] S2 0
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S100000x128_S100000x1_0_0 : S100000x128.Slices ![0, 0] S100000x1
  slices_S100000x128_S100000x1_0_1 : S100000x128.Slices ![0, 1] S100000x1
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x1 : S_.BroadcastsInDim S100000x1 (![] : Fin 0 → Fin S100000x1.rank)
  scatter_S512x128_S1_S512_0_1_1_0_wf : ScatterDims.WF S512x128 S1 S512 [0] [1] [1] 0
  scatter_S1x128_S2_S__n_01_01_0_wf : ScatterDims.WF S1x128 S2 S_ [] [0, 1] [0, 1] 0
  dot_S2000x512_S512x512_S2000x512_1_0_0_1_n_n_wf : DotDims.WF S2000x512 S512x512 S2000x512 [1] [0] [0] [1] [] []
  dot_S2000x512_S512x128_S2000x128_1_0_0_1_n_n_wf : DotDims.WF S2000x512 S512x128 S2000x128 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)

variable [Facts₀]

def scatter_S512x128_S1_S512_0_1_1_0 : ScatterDims S512x128 S1 S512 where
  updateWindowDims := [0]
  insertedWindowDims := [1]
  scatterDimsToOperandDims := [1]
  indexVectorDim := 0
  wf := scatter_S512x128_S1_S512_0_1_1_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S3200000 : Shape := ⟨1, ![3200000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S100000x1 : Shape := ⟨2, ![100000, 1]⟩
abbrev S1x1 : Shape := ⟨2, ![1, 1]⟩
abbrev S_ : Shape := ⟨0, ![]⟩
abbrev S3200000x1 : Shape := ⟨2, ![3200000, 1]⟩

abbrev nBuf : Space → Nat
  | .hbm => 35
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S512x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S512x1, .f32⟩
  | .hbm, ⟨8, _⟩ => ⟨S1, .f32⟩
  | .hbm, ⟨9, _⟩ => ⟨S100000x512, .f32⟩
  | .hbm, ⟨10, _⟩ => ⟨S1x512, .f32⟩
  | .hbm, ⟨11, _⟩ => ⟨S100000x512, .f32⟩
  | .hbm, ⟨12, _⟩ => ⟨S100000x512, .f32⟩
  | .hbm, ⟨13, _⟩ => ⟨S100000x1, .f32⟩
  | .hbm, ⟨14, _⟩ => ⟨S1x1, .f32⟩
  | .hbm, ⟨15, _⟩ => ⟨S100000x1, .f32⟩
  | .hbm, ⟨16, _⟩ => ⟨S100000x1, .f32⟩
  | .hbm, ⟨17, _⟩ => ⟨S100000x1, .f32⟩
  | .hbm, ⟨18, _⟩ => ⟨S1x1, .f32⟩
  | .hbm, ⟨19, _⟩ => ⟨S100000x1, .f32⟩
  | .hbm, ⟨20, _⟩ => ⟨S100000x1, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000x1, .f32⟩
  | .hbm, ⟨30, _⟩ => ⟨S_, .f32⟩
  | .hbm, ⟨31, _⟩ => ⟨S100000x1, .f32⟩
  | .hbm, ⟨32, _⟩ => ⟨S3200000x1, .i32⟩
  | .hbm, ⟨33, _⟩ => ⟨S100000x1, .f32⟩
  | .hbm, ⟨34, _⟩ => ⟨S100000x1, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x1 : S_.BroadcastsInDim S100000x1 (![] : Fin 0 → Fin S100000x1.rank)
  dot_S100000x512_S512x512_S100000x512_1_0_0_1_n_n_wf : DotDims.WF S100000x512 S512x512 S100000x512 [1] [0] [0] [1] [] []
  dot_S100000x512_S512x1_S100000x1_1_0_0_1_n_n_wf : DotDims.WF S100000x512 S512x1 S100000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1

variable [Facts₀]

def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def dot_S100000x512_S512x1_S100000x1_1_0_0_1_n_n : DotDims S100000x512 S512x1 S100000x1 where
  lhsContracting := [1]
  rhsContracting := [0]
  lhsNonContracting := [0]
  rhsNonContracting := [1]
  lhsBatch := []
  rhsBatch := []
  wf := dot_S100000x512_S512x1_S100000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

class Facts : Prop extends Facts₀ where

variable [Facts]
-- ==== Proof.Payload.lean ====
/-
  The kernel body's arithmetic, read at one element.

  One grid point of the kernel holds a block `x` of 2000 rows of the node matrix, the whole embedding matrix `w`, the
  embedding bias row `b`, the packed 512 × 128 projection matrix `wp` and its bias row `bp`. The body computes
  `(x · w + b) · wp + bp` with two matrix products into zero accumulators. Over the extended reals a change of float
  format is the identity and a matrix product into the zero accumulator is the plain sum of products over the
  contracted coordinate, so the element at row `p`, lane `q` of what the body stores is

      Σ_j (Σ_k x[p,k] · w[k,j] + b[0,j]) · wp[j,q]  +  bp[0,q].
-/
import proofs.«158158_j80161269612942_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen

/-- The first product's record: rows of the left operand against columns of the right, one contracted coordinate. -/
abbrev dEmb := dot_S2000x512_S512x512_S2000x512_1_0_0_1_n_n
/-- The second product's record, of the same kind. -/
abbrev dProj := dot_S2000x512_S512x128_S2000x128_1_0_0_1_n_n

theorem dEmb_lhs0 (i : S2000x512.Idx) (q : dEmb.contr.Idx) : (dEmb.lhsIdx i q 0).val = (i 0).val := by
  unfold DotDims.lhsIdx
  rw [dif_neg (show ¬(0 : Fin S2000x512.rank) ∈ dEmb.lhsBatch by decide), dif_pos (show (0 : Fin S2000x512.rank) ∈ dEmb.lhsNonContracting by decide)]
  rfl
theorem dEmb_rhs1 (i : S2000x512.Idx) (q : dEmb.contr.Idx) : (dEmb.rhsIdx i q 1).val = (i 1).val := by
  unfold DotDims.rhsIdx
  rw [dif_neg (show ¬(1 : Fin S512x512.rank) ∈ dEmb.rhsBatch by decide), dif_pos (show (1 : Fin S512x512.rank) ∈ dEmb.rhsNonContracting by decide)]
  rfl
theorem dProj_lhs0 (i : S2000x128.Idx) (q : dProj.contr.Idx) : (dProj.lhsIdx i q 0).val = (i 0).val := by
  unfold DotDims.lhsIdx
  rw [dif_neg (show ¬(0 : Fin S2000x512.rank) ∈ dProj.lhsBatch by decide), dif_pos (show (0 : Fin S2000x512.rank) ∈ dProj.lhsNonContracting by decide)]
  rfl
theorem dProj_rhs1 (i : S2000x128.Idx) (q : dProj.contr.Idx) : (dProj.rhsIdx i q 1).val = (i 1).val := by
  unfold DotDims.rhsIdx
  rw [dif_neg (show ¬(1 : Fin S512x128.rank) ∈ dProj.rhsBatch by decide), dif_pos (show (1 : Fin S512x128.rank) ∈ dProj.rhsNonContracting by decide)]
  rfl

/-- The embedding product into the zero accumulator, at row `p` and column `j`: the sum over the contracted
    coordinate of the products. -/
theorem emb_matmul_apply {φ₁ φ₂ : FTy} (l : FVec Ideal S2000x512 φ₁) (r : FVec Ideal S512x512 φ₂) (p : Fin 2000) (j : Fin 512) :
    matmul dEmb none l r (constant S2000x512 .f32 0x00000000#32) (ix2 p j) = ∑ k : Fin 512, l (ix2 p k) * r (ix2 k j) := by
  simp only [matmul]
  rw [Ideal.matmul_constant_zero_apply, ← Equiv.sum_comp (contrEquiv1 dEmb 512 rfl rfl).symm]
  refine Finset.sum_congr rfl fun k _ => ?_
  have hk := contrEquiv1_symm_val dEmb 512 rfl rfl k
  have el : dEmb.lhsIdx (ix2 p j) ((contrEquiv1 dEmb 512 rfl rfl).symm k) = ix2 p k := funext fun a => Fin.ext (by
    match a with
    | ⟨0, _⟩ => exact dEmb_lhs0 _ _
    | ⟨1, _⟩ => exact (dEmb.lhsIdx_val_of_single rfl _ _).trans hk)
  have er : dEmb.rhsIdx (ix2 p j) ((contrEquiv1 dEmb 512 rfl rfl).symm k) = ix2 k j := funext fun a => Fin.ext (by
    match a with
    | ⟨0, _⟩ => exact (dEmb.rhsIdx_val_of_single rfl _ _).trans hk
    | ⟨1, _⟩ => exact dEmb_rhs1 _ _)
  rw [el, er]

/-- The projection product into the zero accumulator, at row `p` and lane `q`. -/
theorem proj_matmul_apply {φ₁ φ₂ : FTy} (l : FVec Ideal S2000x512 φ₁) (r : FVec Ideal S512x128 φ₂) (p : Fin 2000) (q : Fin 128) :
    matmul dProj none l r (constant S2000x128 .f32 0x00000000#32) (ix2 p q) = ∑ j : Fin 512, l (ix2 p j) * r (ix2 j q) := by
  simp only [matmul]
  rw [Ideal.matmul_constant_zero_apply, ← Equiv.sum_comp (contrEquiv1 dProj 512 rfl rfl).symm]
  refine Finset.sum_congr rfl fun k _ => ?_
  have hk := contrEquiv1_symm_val dProj 512 rfl rfl k
  have el : dProj.lhsIdx (ix2 p q) ((contrEquiv1 dProj 512 rfl rfl).symm k) = ix2 p k := funext fun a => Fin.ext (by
    match a with
    | ⟨0, _⟩ => exact dProj_lhs0 _ _
    | ⟨1, _⟩ => exact (dProj.lhsIdx_val_of_single rfl _ _).trans hk)
  have er : dProj.rhsIdx (ix2 p q) ((contrEquiv1 dProj 512 rfl rfl).symm k) = ix2 k q := funext fun a => Fin.ext (by
    match a with
    | ⟨0, _⟩ => exact (dProj.rhsIdx_val_of_single rfl _ _).trans hk
    | ⟨1, _⟩ => exact dProj_rhs1 _ _)
  rw [el, er]

/-- A one-row vector of 512 lanes broadcast down 2000 rows, at row `p`, lane `j`, is the row's lane `j`. -/
theorem row512_apply {α : Type} (v : S1x512.Idx → α) (h : S1x512.Broadcasts S2000x512) (p : Fin 2000) (j : Fin 512) :
    broadcastTo S2000x512 v h (ix2 p j) = v (ix2 0 j) :=
  broadcastTo_apply v h (ix2 p j) (ix2 0 j) (fun a => match a with
    | ⟨0, _⟩ => by show (0 : Nat) = if (1 : Nat) = 1 then 0 else _; rw [if_pos rfl]
    | ⟨1, _⟩ => by show j.val = if (512 : Nat) = 1 then 0 else j.val; rw [if_neg (by decide)])

/-- A one-row vector of 128 lanes broadcast down 2000 rows, at row `p`, lane `q`, is the row's lane `q`. -/
theorem row128_apply {α : Type} (v : S1x128.Idx → α) (h : S1x128.Broadcasts S2000x128) (p : Fin 2000) (q : Fin 128) :
    broadcastTo S2000x128 v h (ix2 p q) = v (ix2 0 q) :=
  broadcastTo_apply v h (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- What the body stores, at row `p` and lane `q` of the block, as a function of the five loaded blocks. -/
theorem pay_apply (x : FVec Ideal S2000x512 .f32) (w : FVec Ideal S512x512 .bf16) (b : FVec Ideal S1x512 .f32)
    (wp : FVec Ideal S512x128 .bf16) (bp : FVec Ideal S1x128 .f32) (p : Fin 2000) (q : Fin 128) :
    k0_pay1 (F := Ideal) x w b wp bp (ix2 p q)
      = (∑ j : Fin 512, ((∑ k : Fin 512, x (ix2 p k) * w (ix2 k j)) + b (ix2 0 j)) * wp (ix2 j q)) + bp (ix2 0 q) := by
  unfold k0_pay1
  simp only [shapeCast_self]
  rw [addf_apply, row128_apply]
  refine congrArg (· + bp (ix2 0 q)) ?_
  refine (proj_matmul_apply _ _ p q).trans (Finset.sum_congr rfl fun j _ => ?_)
  refine congrArg (· * wp (ix2 j q)) ?_
  rw [truncf_apply, addf_apply, row512_apply]
  exact congrArg (· + b (ix2 0 j)) (emb_matmul_apply _ _ p j)

end Cert.KernelIdeal.BodyValue

end
-- ==== Proof.Spec.lean ====
/-
  The two quantities both programs compute, as plain functions over the extended reals.

  For node `n`: the embedding row  e[n,j] = Σ_k X[n,k] · W[k,j] + b[j]  (512 entries), and one attention score
  Σ_j e[n,j] · v[j] + β  for a 512-vector `v` and a scalar `β`. The local score uses (w_local, b_local), the
  neighbour score (w_neigh, b_neigh). No algebraic law is needed between the two programs: both evaluate exactly
  these sums, so the definitions below are shared by the two sides verbatim.
-/
import Idealize.ShloMosaic.PureOps.Ideal
import Idealize.ShloMosaic.Lib.ValueIdx

noncomputable section

namespace Cert.Spec

open Idealize.ShloMosaic Idealize.ShloMosaic.ValueIdx

/-- The embedding of node `n`, entry `j`: row `n` of `X` against column `j` of `W`, plus the bias entry. -/
def embAt (X : (⟨2, ![100000, 512]⟩ : Shape).Idx → EReal) (W : (⟨2, ![512, 512]⟩ : Shape).Idx → EReal) (b : Fin 512 → EReal)
    (n : Fin 100000) (j : Fin 512) : EReal :=
  (∑ k : Fin 512, X (ix2 n k) * W (ix2 k j)) + b j

/-- One attention score of node `n`: its embedding row against the vector `v`, plus the scalar bias `β`. -/
def scoreAt (X : (⟨2, ![100000, 512]⟩ : Shape).Idx → EReal) (W : (⟨2, ![512, 512]⟩ : Shape).Idx → EReal) (b : Fin 512 → EReal)
    (v : Fin 512 → EReal) (β : EReal) (n : Fin 100000) : EReal :=
  (∑ j : Fin 512, embAt X W b n j * v j) + β

end Cert.Spec

end
-- ==== Proof.Blocks.lean ====
/-
  From the blocks the grid points write back to the whole output array.

  Point `t` of the 50-point grid reads rows [2000·t, 2000·t + 2000) of the node matrix and the whole of the other four
  operands, and writes back rows [2000·t, 2000·t + 2000) of the 100000 × 128 result. What it writes is the body's
  arithmetic of what it read, so row `n`, lane `q` of the block is the attention score of node `n` against column `q` of
  the packed projection matrix: the block is a block of ONE function of the operand arrays. The fifty blocks tile the
  result, so after the run the result array is that function.
-/
import proofs.«158158_j80161269612942_1_alg».proof.Proof.Gen.KernelIdeal.Frame
import proofs.«158158_j80161269612942_1_alg».proof.Proof.Payload
import proofs.«158158_j80161269612942_1_alg».proof.Proof.Spec
import Idealize.ShloMosaic.Lib.Pipeline.Value
import Idealize.ShloMosaic.Lib.ValueIdx

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.KernelIdeal.BodyValue Cert.Spec

variable (m : (ℓ : Loc nD τ sig) → Buf (Elt Ideal) ℓ)

theorem hz : (![0, 0] : Fin 2 → Nat) = fun _ => 0 := funext fun a => by fin_cases a <;> rfl

/-- The result array as a function of the five operand arrays: at row `n`, lane `q`, node `n`'s score against column
    `q` of the projection matrix `WP` with bias `BP[0,q]`, over the embedding with matrix `W` and bias row `B`. -/
def scores (X : S100000x512.Idx → EReal) (W : S512x512.Idx → EReal) (B : S1x512.Idx → EReal) (WP : S512x128.Idx → EReal)
    (BP : S1x128.Idx → EReal) : S100000x128.Idx → EReal := fun i =>
  scoreAt X W (fun j => B (ix2 0 j)) (fun j => WP (ix2 j ⟨(i 1).val, idx2_lt1 i⟩)) (BP (ix2 0 ⟨(i 1).val, idx2_lt1 i⟩))
    ⟨(i 0).val, idx2_lt0 i⟩

/-- The printed index maps over the grid: the node matrix's block and the result's block are both block `t` along the
    rows; every other operand is one whole block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 50 :=
  (by decide +kernel : ∀ t : Fin grid0.N, _)

/-- The node-matrix block at point `t`, row `p`, column `k`: the array's row 2000·t + p. -/
theorem read_x (c : Dev nD) (t : Fin cfg0.N) (p : Fin 2000) (k : Fin 512) (n : Fin 100000) (hn : n.val = t.val * 2000 + p.val) :
    iblk m c 0 t (ix2 p k) = V m c main_arg0 (ix2 n k) := by
  obtain ⟨e0, e1, -⟩ := idx_facts t
  show V m c main_arg0 (((cfg0.win 0).blk t).view.emb (ix2 p k)) = V m c main_arg0 (ix2 n k)
  refine congrArg (V m c main_arg0) (funext fun a => Fin.ext ?_)
  match a with
  | ⟨0, _⟩ => show win0_0.index t (0 : Fin 2) * 2000 + 1 * p.val = n.val; omega
  | ⟨1, _⟩ => show win0_0.index t (1 : Fin 2) * 512 + 1 * k.val = k.val; omega

/-- The embedding matrix's one block is the array. -/
theorem read_w (c : Dev nD) (t : Fin cfg0.N) (k j : Fin 512) : iblk m c 1 t (ix2 k j) = V m c main_v0 (ix2 k j) := by
  obtain ⟨-, -, e0, e1, -⟩ := idx_facts t
  show V m c main_v0 (((cfg0.win 1).blk t).view.emb (ix2 k j)) = V m c main_v0 (ix2 k j)
  refine congrArg (V m c main_v0) (funext fun a => Fin.ext ?_)
  match a with
  | ⟨0, _⟩ => show win0_1.index t (0 : Fin 2) * 512 + 1 * k.val = k.val; omega
  | ⟨1, _⟩ => show win0_1.index t (1 : Fin 2) * 512 + 1 * j.val = j.val; omega

/-- The embedding bias row's one block is the array. -/
theorem read_b (c : Dev nD) (t : Fin cfg0.N) (j : Fin 512) : iblk m c 2 t (ix2 0 j) = V m c main_v1 (ix2 0 j) := by
  obtain ⟨-, -, -, -, e0, e1, -⟩ := idx_facts t
  show V m c main_v1 (((cfg0.win 2).blk t).view.emb (ix2 0 j)) = V m c main_v1 (ix2 0 j)
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 512 + 1 * j.val = j.val; omega

/-- The projection matrix's one block is the array. -/
theorem read_wp (c : Dev nD) (t : Fin cfg0.N) (j : Fin 512) (q : Fin 128) : iblk m c 3 t (ix2 j q) = V m c main_v9 (ix2 j q) := by
  obtain ⟨-, -, -, -, -, -, e0, e1, -⟩ := idx_facts t
  show V m c main_v9 (((cfg0.win 3).blk t).view.emb (ix2 j q)) = V m c main_v9 (ix2 j q)
  refine congrArg (V m c main_v9) (funext fun a => Fin.ext ?_)
  match a with
  | ⟨0, _⟩ => show win0_3.index t (0 : Fin 2) * 512 + 1 * j.val = j.val; omega
  | ⟨1, _⟩ => show win0_3.index t (1 : Fin 2) * 128 + 1 * q.val = q.val; omega

/-- The projection bias row's one block is the array. -/
theorem read_bp (c : Dev nD) (t : Fin cfg0.N) (q : Fin 128) : iblk m c 4 t (ix2 0 q) = V m c main_v20 (ix2 0 q) := by
  obtain ⟨-, -, -, -, -, -, -, -, e0, e1, -⟩ := idx_facts t
  show V m c main_v20 (((cfg0.win 4).blk t).view.emb (ix2 0 q)) = V m c main_v20 (ix2 0 q)
  refine congrArg (V m c main_v20) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- The body's result over five blocks that are the arrays read as above, at index `y` of the block, is the score
    function at the array index `i` the block's index lands on: stated over variables, the blocks' reads as hypotheses. -/
theorem block_scores (x : FVec Ideal S2000x512 .f32) (w : FVec Ideal S512x512 .bf16) (b : FVec Ideal S1x512 .f32)
    (wp : FVec Ideal S512x128 .bf16) (bp : FVec Ideal S1x128 .f32)
    (X : S100000x512.Idx → EReal) (W : S512x512.Idx → EReal) (B : S1x512.Idx → EReal) (WP : S512x128.Idx → EReal) (BP : S1x128.Idx → EReal)
    (y : S2000x128.Idx) (i : S100000x128.Idx) (hi1 : (i 1).val = (y 1).val)
    (hx : ∀ k, x (ix2 (⟨(y 0).val, idx2_lt0 y⟩ : Fin 2000) k) = X (ix2 ⟨(i 0).val, idx2_lt0 i⟩ k)) (hw : ∀ k j, w (ix2 k j) = W (ix2 k j))
    (hb : ∀ j, b (ix2 0 j) = B (ix2 0 j))
    (hwp : ∀ j, wp (ix2 j (⟨(y 1).val, idx2_lt1 y⟩ : Fin 128)) = WP (ix2 j ⟨(y 1).val, idx2_lt1 y⟩))
    (hbp : bp (ix2 0 (⟨(y 1).val, idx2_lt1 y⟩ : Fin 128)) = BP (ix2 0 ⟨(y 1).val, idx2_lt1 y⟩)) :
    k0_pay1 (F := Ideal) x w b wp bp y = scores X W B WP BP i := by
  have hq : (⟨(i 1).val, idx2_lt1 i⟩ : Fin 128) = ⟨(y 1).val, idx2_lt1 y⟩ := Fin.ext hi1
  have e : y = ix2 (⟨(y 0).val, idx2_lt0 y⟩ : Fin 2000) (⟨(y 1).val, idx2_lt1 y⟩ : Fin 128) := eq_ix2 y
  refine (congrArg (k0_pay1 (F := Ideal) x w b wp bp) e).trans ?_
  rw [pay_apply]
  unfold scores scoreAt embAt
  rw [hq, hbp]
  refine congrArg (· + BP (ix2 0 ⟨(y 1).val, idx2_lt1 y⟩)) (Finset.sum_congr rfl fun j _ => ?_)
  rw [hwp j, hb j]
  refine congrArg (fun s => (s + B (ix2 0 j)) * WP (ix2 j ⟨(y 1).val, idx2_lt1 y⟩)) (Finset.sum_congr rfl fun k _ => ?_)
  rw [hx k, hw k j]

/-- WHAT POINT `t` WRITES BACK is block `t` of the score function of the operand arrays as the region finds them. -/
theorem flushed_eq (c : Dev nD) (t : Fin cfg0.N) :
    (dats m 0 c).flushed 5 t = ((cfg0.win 5).blk t).view.read (Elt Ideal)
      (scores (V m c main_arg0) (V m c main_v0) (V m c main_v1) (V m c main_v9) (V m c main_v20)) := by
  show (cfg0.win 5).cut (grid0.coords t) ((dats m 0 c).after 5 t) = _
  rw [after0_5]
  unfold out0_5
  rw [View.canon_unit_zero hz]
  simp only [View.ld_unit_zero (S := S2000x512) hz, View.ld_unit_zero (S := S512x512) hz, View.ld_unit_zero (S := S1x512) hz,
    View.ld_unit_zero (S := S512x128) hz, View.ld_unit_zero (S := S1x128) hz]
  obtain ⟨-, -, -, -, -, -, -, -, -, -, e0, e1, ht⟩ := idx_facts t
  funext y
  have hy0 : (y 0).val < 2000 := (y 0).isLt
  have hy1 : (y 1).val < 128 := (y 1).isLt
  have hemb0 : ((((cfg0.win 5).blk t).view.emb y) 0).val = t.val * 2000 + (y 0).val := by
    show win0_5.index t (0 : Fin 2) * 2000 + 1 * (y 0).val = _; omega
  have hemb1 : ((((cfg0.win 5).blk t).view.emb y) 1).val = (y 1).val := by
    show win0_5.index t (1 : Fin 2) * 128 + 1 * (y 1).val = _; omega
  show k0_pay1 (F := Ideal) (iblk m c 0 t) (iblk m c 1 t) (iblk m c 2 t) (iblk m c 3 t) (iblk m c 4 t) y
    = scores (V m c main_arg0) (V m c main_v0) (V m c main_v1) (V m c main_v9) (V m c main_v20) (((cfg0.win 5).blk t).view.emb y)
  exact block_scores (iblk m c 0 t) (iblk m c 1 t) (iblk m c 2 t) (iblk m c 3 t) (iblk m c 4 t)
    (V m c main_arg0) (V m c main_v0) (V m c main_v1) (V m c main_v9) (V m c main_v20)
    y (((cfg0.win 5).blk t).view.emb y) hemb1
    (fun k => read_x m c t ⟨(y 0).val, hy0⟩ k ⟨((((cfg0.win 5).blk t).view.emb y) 0).val, idx2_lt0 _⟩ hemb0)
    (fun k j => read_w m c t k j) (fun j => read_b m c t j)
    (fun j => read_wp m c t j ⟨(y 1).val, hy1⟩) (read_bp m c t ⟨(y 1).val, hy1⟩)

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v21).slice (win0_5.rect t)).set ↔ _
  rw [View.set_slice_whole, Rect.mem_set_unit]
  exact Iff.rfl

/-- Every row belongs to the point that is its quotient by 2000: the fifty blocks tile the result. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 2000, by show _ < grid0.N; rw [N_0]; omega⟩
  obtain ⟨-, -, -, -, -, -, -, -, -, -, e0, e1, -⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE RESULT ARRAY after the run: the score function of the operand arrays as the region finds them. -/
theorem final (c : Dev nD) : (dats m 0 c).arrAt 5 cfg0.N
    = scores (V m c main_arg0) (V m c main_v0) (V m c main_v1) (V m c main_v9) (V m c main_v20) :=
  (dats m 0 c).arrAt_eq_of_cover 5 _ (fun t _ => flushed_eq m c t) cover

end Cert.KernelIdeal.ArrayValue

end
-- ==== Proof.Aggregate.lean ====
/-
  The neighbour aggregation both programs end with, as ONE function of the two score columns and the two edge lists.

  Given the local scores and the neighbour scores of the 100000 nodes (each a 100000 × 1 column), the edge sources and the
  edge destinations (3200000 each): a negative destination index is moved up by 100000, each edge gathers the neighbour
  score of its destination, the gathered scores are summed into their edges' source nodes, and the local scores are added.
  Both programs apply exactly these host operations, in this order, to their own two score columns; so the certificate
  never opens them: equal score columns go in, equal results come out.
-/
import Idealize.ShloMosaic.PureOps.Ideal
import Idealize.ShloMosaic.PureOps.Contract

noncomputable section

namespace Cert.Spec

open Idealize.ShloMosaic

abbrev NodeCol : Shape := ⟨2, ![100000, 1]⟩
abbrev EdgeCol : Shape := ⟨2, ![3200000, 1]⟩
abbrev EdgeVec : Shape := ⟨1, ![3200000]⟩
abbrev NoAxes : Shape := ⟨0, ![]⟩

/-- Local scores plus, per node, the sum over the edges leaving it of the neighbour score at the edge's (wrapped)
    destination: the gather and the accumulating scatter as the two programs print them, their dimension records and
    shape facts as parameters. -/
def aggregate (gd : GatherDims NodeCol EdgeCol EdgeCol) (sd : ScatterDims NodeCol EdgeCol EdgeCol)
    (h0 : NoAxes.BroadcastsInDim NodeCol (![] : Fin 0 → Fin NodeCol.rank))
    (h1 : EdgeVec.BroadcastsInDim EdgeCol (![0] : Fin 1 → Fin EdgeCol.rank))
    (h2 : NoAxes.BroadcastsInDim EdgeVec (![] : Fin 0 → Fin EdgeVec.rank))
    (loc neigh : FVec Ideal NodeCol .f32) (src dst : IVec EdgeVec 32) : FVec Ideal NodeCol .f32 :=
  addf loc
    (Host.scatterAdd sd (broadcastInDim NodeCol ![] h0 (constant (F := Ideal) NoAxes .f32 0x00000000#32)) (broadcastInDim EdgeCol ![0] h1 src)
      (Host.gather gd neigh
        (broadcastInDim EdgeCol ![0] h1
          (select (cmpi .slt dst (broadcastInDim EdgeVec ![] h2 (constantI NoAxes 32 0#32)))
            (addi dst (broadcastInDim EdgeVec ![] h2 (constantI NoAxes 32 100000#32))) dst))))

end Cert.Spec

end
-- ==== Proof.Tail.lean ====
/-
  The kernel program's result: the aggregation of columns 0 and 1 of the kernel's output array.

  After the kernel, the host slices column 0 (the local scores) and column 1 (the neighbour scores) out of the
  100000 × 128 array the kernel wrote, wraps negative destinations, gathers, sums into the sources and adds the local
  scores. The run leaves the program's result at these operations applied to the array the kernel wrote, which is the
  score function of the operands; the edge lists are the arguments, untouched by any operation.
-/
import proofs.«158158_j80161269612942_1_alg».proof.Proof.Gen.KernelIdeal.Frame
import proofs.«158158_j80161269612942_1_alg».proof.Proof.Blocks
import proofs.«158158_j80161269612942_1_alg».proof.Proof.Aggregate
import Idealize.ShloMosaic.Lib.StableHlo.Run
import Idealize.ShloMosaic.PureOps.Ideal

noncomputable section

namespace Cert.KernelIdeal.TailValue

open Idealize.ShloMosaic Idealize.ShloMosaic.TcCoe Idealize.SL.Sem Idealize.ShloMosaic.StableHlo
open Cert.KernelIdeal Cert.KernelIdeal.Gen Cert.KernelIdeal.ArrayValue Cert.Spec

variable (m : (ℓ : Loc nD τ sig) → Buf (Elt Ideal) ℓ) (ρ : Dev nD → PrngReg)

/-- The array the kernel wrote, as the score function of the operand arrays the region found. -/
abbrev written (c : Dev nD) : S100000x128.Idx → EReal :=
  scores (V m c main_arg0) (V m c main_v0) (V m c main_v1) (V m c main_v9) (V m c main_v20)

/-- Column `q` (0 or 1) of it, as a 100000 × 1 column. -/
abbrev localCol (c : Dev nD) : S100000x1.Idx → EReal :=
  extractStridedSlice S100000x1 ![0, 0] (written m c) Facts₀.slices_S100000x128_S100000x1_0_0
abbrev neighCol (c : Dev nD) : S100000x1.Idx → EReal :=
  extractStridedSlice S100000x1 ![0, 1] (written m c) Facts₀.slices_S100000x128_S100000x1_0_1

set_option maxHeartbeats 4000000 in
/-- The host operations after the kernel, applied to the array it wrote and the two edge lists. -/
theorem tail_eq (c : Dev nD) :
    Pipeline.afterTail₀ cfgs (dats m) 0 (V0 m) [hostOps1] c main_v34
      = aggregate gather_S100000x1_S3200000x1_S3200000x1_1_0_n_n_0_1_11 scatter_S100000x1_S3200000x1_S3200000x1_1_0_0_1
          Facts₀.bcast_S_S100000x1 Facts₀.bcast_S3200000_S3200000x1_0 Facts₀.bcast_S_S3200000
          (localCol m c) (neighCol m c)
          (m ((c.tc : Thread nD τ).loc main_arg1)) (m ((c.tc : Thread nD τ).loc main_arg2)) := by
  have e21 : Pipeline.withArrays (cfgs 0).spec c (V0 m c) (fun w => (dats m 0 c).arrAt w (cfgs 0).N) (Proc.devRef .tc main_v21)
      = written m c :=
    (Pipeline.withArrays_arr spec0 launch0.win.arr_inj c _ _ 5).trans (final m c)
  have e1 : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans (V_main_arg1 m c)
  have e2 : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  unfold Pipeline.afterTail₀
  simp only [List.flatten_cons, List.flatten_nil, List.append_nil]
  after_results
  rw [e21, e1, e2]
  rfl

/-- THE KERNEL PROGRAM'S RUN: every weakly fair execution terminates with the result at the aggregation of the two
    score columns of the written array, and the nine arguments unchanged. -/
theorem run : θ_run defs (onTc (τ := τ) (main (F := Ideal))) ⟨m, fun _ => 0, ρ⟩ fun r => ∀ c : Dev nD,
      r.2.mem ((c.tc : Thread nD τ).loc main_v34)
        = aggregate gather_S100000x1_S3200000x1_S3200000x1_1_0_n_n_0_1_11 scatter_S100000x1_S3200000x1_S3200000x1_1_0_0_1
            Facts₀.bcast_S_S100000x1 Facts₀.bcast_S3200000_S3200000x1_0 Facts₀.bcast_S_S3200000
            (localCol m c) (neighCol m c)
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v34 (Pipeline.mem_restRefs_of main_v34 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.TailValue

end
-- ==== Proof.LibScatterRead.lean ====
/-
  Reading a scatter at one operand index.

  `Host.scatter` is a left fold over the update indices in row-major order: an update index whose
  result index is `some i` replaces the element at `i` by the body applied to the old element and
  the update's; one whose result index is `none` is dropped. Read at a fixed operand index `i`:

  * if no update index lands on `i`, the element is the operand's;
  * if the body returns the update (`fun _ b => b`, a "set") and exactly one update index `j0`
    lands on `i`, the element is `upd j0`.
-/
import Idealize.ShloMosaic.PureOps.ShapeOps

namespace Idealize.ShloMosaic.ScatterRead

open Idealize.ShloMosaic

/-- A left fold of steps `g` on functions, read at a point `i`: if every step whose index fails `P`
    leaves the value at `i` alone and no index of the list satisfies `P`, the value at `i` is the
    start's. -/
private theorem foldl_apply_of_not_hit {β ι κ : Type} (g : (κ → β) → ι → (κ → β)) (i : κ) (P : ι → Prop)
    (hmiss : ∀ r n, ¬ P n → g r n i = r i) :
    ∀ (l : List ι) (r : κ → β), (∀ n ∈ l, ¬ P n) → l.foldl g r i = r i := by
  intro l
  induction l with
  | nil => intro r _; rfl
  | cons n l ih =>
    intro r h
    rw [List.foldl_cons, ih (g r n) (fun m hm => h m (List.mem_cons_of_mem _ hm))]
    exact hmiss r n (h n List.mem_cons_self)

/-- The same fold when exactly one index `n0` of a list without repeats satisfies `P`, and a step
    whose index satisfies `P` sets the value at `i` to `v` of that index: the value at `i` is
    `v n0` (the steps before `n0` are overwritten, the steps after it leave `i` alone). -/
private theorem foldl_apply_of_unique_hit {β ι κ : Type} (g : (κ → β) → ι → (κ → β)) (i : κ) (P : ι → Prop)
    (v : ι → β) (hmiss : ∀ r n, ¬ P n → g r n i = r i) (hhit : ∀ r n, P n → g r n i = v n) (n0 : ι) (h0 : P n0) :
    ∀ (l : List ι) (r : κ → β), l.Nodup → n0 ∈ l → (∀ n ∈ l, P n → n = n0) → l.foldl g r i = v n0 := by
  intro l
  induction l with
  | nil => intro r _ hmem _; exact absurd hmem List.not_mem_nil
  | cons n l ih =>
    intro r hnd hmem huniq
    rw [List.nodup_cons] at hnd
    rw [List.foldl_cons]
    rcases List.mem_cons.1 hmem with hEq | hIn
    · -- `n0` is the head: the tail has no index satisfying `P`
      subst hEq
      rw [foldl_apply_of_not_hit g i P hmiss l (g r n0) (fun m hm hP => by
        have := huniq m (List.mem_cons_of_mem _ hm) hP
        exact hnd.1 (this ▸ hm))]
      exact hhit r n0 h0
    · exact ih (g r n) hnd.2 hIn (fun m hm => huniq m (List.mem_cons_of_mem _ hm))

variable {s si u : Shape} {w : Nat} {α : Type}

/-- One step of the scatter's fold leaves the element at `i` alone when its update index does not
    land on `i`. -/
private theorem step_of_ne (d : ScatterDims s si u) (f : α → α → α) (idx : IVec si w) (upd : u.Idx → α) (i : s.Idx)
    (r : s.Idx → α) (n : Fin u.numel) (h : ¬ d.resultIdx? (u.rowMajor.symm n) idx = some i) :
    (match d.resultIdx? (u.rowMajor.symm n) idx with
      | some i₁ => fun i' => if i' = i₁ then f (r i₁) (upd (u.rowMajor.symm n)) else r i'
      | none => r) i = r i := by
  generalize d.resultIdx? (u.rowMajor.symm n) idx = o at h ⊢
  cases o with
  | none => rfl
  | some i₁ =>
    have hne : i ≠ i₁ := fun e => h (by rw [e])
    exact if_neg hne

/-- One step of a "set" scatter's fold puts the update's element at `i` when its update index
    lands on `i`. -/
private theorem step_of_eq (d : ScatterDims s si u) (idx : IVec si w) (upd : u.Idx → α) (i : s.Idx)
    (r : s.Idx → α) (n : Fin u.numel) (h : d.resultIdx? (u.rowMajor.symm n) idx = some i) :
    (match d.resultIdx? (u.rowMajor.symm n) idx with
      | some i₁ => fun i' => if i' = i₁ then (fun _ b => b) (r i₁) (upd (u.rowMajor.symm n)) else r i'
      | none => r) i = upd (u.rowMajor.symm n) := by
  generalize d.resultIdx? (u.rowMajor.symm n) idx = o at h ⊢
  subst h
  exact if_pos rfl

/-- A scatter read at an operand index that NO update index lands on is the operand's element,
    whatever the body `f` is. -/
theorem scatter_apply_of_not_hit {s si u : Shape} {w : Nat} {α : Type} (d : ScatterDims s si u) (f : α → α → α) (x : s.Idx → α)
    (idx : IVec si w) (upd : u.Idx → α) (i : s.Idx) (h : ∀ j : u.Idx, d.resultIdx? j idx ≠ some i) :
    Host.scatter d f x idx upd i = x i := by
  unfold Host.scatter
  exact foldl_apply_of_not_hit _ i (fun n => d.resultIdx? (u.rowMajor.symm n) idx = some i)
    (fun r n hn => step_of_ne d f idx upd i r n hn) (List.finRange u.numel) x (fun n _ => h (u.rowMajor.symm n))

/-- A scatter whose body returns the update (`fun _ b => b`: a scatter that SETS elements), read at an
    operand index `i` that exactly one update index `j0` lands on, is the update's element at `j0`. -/
theorem scatter_set_apply_of_unique {s si u : Shape} {w : Nat} {α : Type} (d : ScatterDims s si u) (x : s.Idx → α)
    (idx : IVec si w) (upd : u.Idx → α) (i : s.Idx) (j0 : u.Idx) (h0 : d.resultIdx? j0 idx = some i)
    (huniq : ∀ j : u.Idx, d.resultIdx? j idx = some i → j = j0) :
    Host.scatter d (fun _ b => b) x idx upd i = upd j0 := by
  unfold Host.scatter
  have key := foldl_apply_of_unique_hit
    (fun (r : s.Idx → α) (n : Fin u.numel) =>
      match d.resultIdx? (u.rowMajor.symm n) idx with
      | some i₁ => fun i' => if i' = i₁ then (fun _ b => b) (r i₁) (upd (u.rowMajor.symm n)) else r i'
      | none => r)
    i (fun n => d.resultIdx? (u.rowMajor.symm n) idx = some i) (fun n => upd (u.rowMajor.symm n))
    (fun r n hn => step_of_ne d (fun _ b => b) idx upd i r n hn)
    (fun r n hn => step_of_eq d idx upd i r n hn)
    (u.rowMajor j0) (by rw [Equiv.symm_apply_apply]; exact h0)
    (List.finRange u.numel) x (List.nodup_finRange _) (List.mem_finRange _)
    (fun n _ hn => (Equiv.symm_apply_eq _).1 (huniq _ hn))
  rw [Equiv.symm_apply_apply] at key
  exact key

end Idealize.ShloMosaic.ScatterRead
-- ==== Proof.ScatterCols.lean ====
/-
  The kernel's two "set" scatters read at an index.

  * The column scatter (operand 512×128, one scatter index, updates of length 512; the update's
    one axis is a window axis going to the operand's rows, the operand's column axis is inserted
    and named by the one index): update index `j` lands on `(j, c)`, where `c` is the column the
    index word names. So the result's column `c` is the update and every other column is the
    operand's.
  * The entry scatter (operand 1×128, an index vector of two components, one scalar update; both
    operand axes inserted): the one update index lands on `(r, c)` = the two index words. With the
    row word `0` the result's entry `(0, c)` is the update and every other entry the operand's.

  Both follow from the general reading of a scatter whose result indices are pairwise distinct
  (module LibScatterRead), once the result index of an update index is computed.
-/
import proofs.«158158_j80161269612942_1_alg».proof.KernelIdeal
import Idealize.ShloMosaic.Lib.ValueIdx
import proofs.«158158_j80161269612942_1_alg».proof.Proof.LibScatterRead

namespace Cert.KernelIdeal.ScatterCols

open Idealize.ShloMosaic Idealize.ShloMosaic.ValueIdx Cert.KernelIdeal

variable [Cert.KernelIdeal.Facts₀]

/-- A rank-2 index with the given two coordinate values is `ix2` of them. -/
theorem idx2_eq_of_val {n0 n1 : Nat} (f : (⟨2, ![n0, n1]⟩ : Shape).Idx) (a : Fin n0) (b : Fin n1)
    (h0 : (f ⟨0, Nat.zero_lt_two⟩).val = a.val) (h1 : (f ⟨1, Nat.one_lt_two⟩).val = b.val) : f = ix2 a b := by
  funext c
  match c with
  | ⟨0, _⟩ => exact Fin.ext h0
  | ⟨1, _⟩ => exact Fin.ext h1

/-! ## The column scatter -/

/-- The row axis is not named by the scatter-dims-to-operand-dims map `[1]`: the window starts at row `0`. -/
theorem col_start0 (idx : IVec S1 32) (j : S512.Idx) : scatter_S512x128_S1_S512_0_1_1_0.start j idx ⟨0, by decide⟩ = 0 := by
  unfold ScatterDims.start
  have h : ¬ ((⟨0, by decide⟩ : Fin 2) ∈ ([1] : List (Fin 2))) := by decide
  exact dif_neg h

/-- The column axis is the one the map names: the window starts at the column the index word names
    (every entry of the one-element index array is that word). -/
theorem col_start1 (idx : IVec S1 32) (cw : BitVec 32) (hidx : ∀ k, idx k = cw) (j : S512.Idx) :
    scatter_S512x128_S1_S512_0_1_1_0.start j idx ⟨1, by decide⟩ = cw.toInt := by
  unfold ScatterDims.start
  have h : (⟨1, by decide⟩ : Fin S512x128.rank) ∈ scatter_S512x128_S1_S512_0_1_1_0.scatterDimsToOperandDims := by
    show (⟨1, by decide⟩ : Fin 2) ∈ ([1] : List (Fin 2)); decide
  rw [dif_pos h, hidx]

/-- The row axis is the operand's one kept axis (`[0]` = the axes but the inserted `[1]`), and the update's one
    axis goes to it: the window coordinate on the rows is the update index's coordinate. -/
theorem col_window0 (j : Fin 512) : scatter_S512x128_S1_S512_0_1_1_0.window (ix1 j) ⟨0, by decide⟩ = j.val := by
  unfold ScatterDims.window
  have h : (⟨0, by decide⟩ : Fin S512x128.rank) ∈ scatter_S512x128_S1_S512_0_1_1_0.sKept := by
    show (⟨0, by decide⟩ : Fin 2) ∈ S512x128.kept ([1] : List (Fin 2)); decide
  rw [dif_pos h]
  rfl

/-- The column axis is inserted: its window coordinate is `0`. -/
theorem col_window1 (j : S512.Idx) : scatter_S512x128_S1_S512_0_1_1_0.window j ⟨1, by decide⟩ = 0 := by
  unfold ScatterDims.window
  have h : ¬ ((⟨1, by decide⟩ : Fin 2) ∈ S512x128.kept ([1] : List (Fin 2))) := by decide
  exact dif_neg h

/-- The column scatter's result index: update index `j` lands on row `j` of the column `cv` the index word
    names (`0 + j` on the rows, `cv + 0` on the columns, both inside the operand). -/
theorem col_resultIdx (idx : IVec S1 32) (cw : BitVec 32) (cv : Fin 128) (hc : cw.toInt = (cv.val : Int))
    (hidx : ∀ k, idx k = cw) (j : Fin 512) :
    scatter_S512x128_S1_S512_0_1_1_0.resultIdx? (ix1 j) idx = some (ix2 j cv) := by
  have e0 : scatter_S512x128_S1_S512_0_1_1_0.start (ix1 j) idx ⟨0, by decide⟩
      + (scatter_S512x128_S1_S512_0_1_1_0.window (ix1 j) ⟨0, by decide⟩ : Int) = (j.val : Int) := by
    rw [col_start0, col_window0]; omega
  have e1 : scatter_S512x128_S1_S512_0_1_1_0.start (ix1 j) idx ⟨1, by decide⟩
      + (scatter_S512x128_S1_S512_0_1_1_0.window (ix1 j) ⟨1, by decide⟩ : Int) = (cv.val : Int) := by
    rw [col_start1 idx cw hidx, col_window1, hc]; omega
  have hj := j.isLt
  have hv := cv.isLt
  unfold ScatterDims.resultIdx?
  have hall : ∀ a : Fin S512x128.rank,
      0 ≤ scatter_S512x128_S1_S512_0_1_1_0.start (ix1 j) idx a + (scatter_S512x128_S1_S512_0_1_1_0.window (ix1 j) a : Int)
      ∧ scatter_S512x128_S1_S512_0_1_1_0.start (ix1 j) idx a + (scatter_S512x128_S1_S512_0_1_1_0.window (ix1 j) a : Int)
        < (S512x128.size a : Int) := by
    intro a
    match a with
    | ⟨0, _⟩ => rw [e0]; show (0 : Int) ≤ j.val ∧ (j.val : Int) < ((512 : Nat) : Int); omega
    | ⟨1, _⟩ => rw [e1]; show (0 : Int) ≤ cv.val ∧ (cv.val : Int) < ((128 : Nat) : Int); omega
  rw [dif_pos hall]
  refine congrArg some (idx2_eq_of_val _ j cv ?_ ?_)
  · exact (congrArg Int.toNat e0).trans (Int.toNat_natCast _)
  · exact (congrArg Int.toNat e1).trans (Int.toNat_natCast _)

/-- The column the index word names is the update: the column scatter read at `(j, cv)` is the update's
    element `j` (update index `j` lands there, and it is the only one, the rows being distinct). -/
theorem col_hit {α : Type} (x : S512x128.Idx → α) (idx : IVec S1 32) (upd : S512.Idx → α) (cw : BitVec 32) (cv : Fin 128)
    (hc : cw.toInt = (cv.val : Int)) (hidx : ∀ k, idx k = cw) (j : Fin 512) :
    Host.scatter scatter_S512x128_S1_S512_0_1_1_0 (fun _ b => b) x idx upd (ix2 j cv) = upd (ix1 j) := by
  refine ScatterRead.scatter_set_apply_of_unique _ x idx upd (ix2 j cv) (ix1 j) (col_resultIdx idx cw cv hc hidx j) ?_
  intro j' hj'
  obtain ⟨a, rfl⟩ : ∃ a : Fin 512, j' = ix1 a := ⟨j' 0, eq_ix1 j'⟩
  rw [col_resultIdx idx cw cv hc hidx a] at hj'
  have h : a = j := Fin.ext (congrArg Fin.val (congrFun (Option.some.inj hj') ⟨0, Nat.zero_lt_two⟩))
  rw [h]

/-- Every other column is the operand's: the column scatter read at `(j, q)` with `q` not the column the
    index word names is the operand's element (every update index lands in column `cv`). -/
theorem col_miss {α : Type} (x : S512x128.Idx → α) (idx : IVec S1 32) (upd : S512.Idx → α) (cw : BitVec 32) (cv : Fin 128)
    (hc : cw.toInt = (cv.val : Int)) (hidx : ∀ k, idx k = cw) (j : Fin 512) (q : Fin 128) (hq : q ≠ cv) :
    Host.scatter scatter_S512x128_S1_S512_0_1_1_0 (fun _ b => b) x idx upd (ix2 j q) = x (ix2 j q) := by
  refine ScatterRead.scatter_apply_of_not_hit _ _ x idx upd (ix2 j q) ?_
  intro j' hj'
  obtain ⟨a, rfl⟩ : ∃ a : Fin 512, j' = ix1 a := ⟨j' 0, eq_ix1 j'⟩
  rw [col_resultIdx idx cw cv hc hidx a] at hj'
  have h : cv = q := Fin.ext (congrArg Fin.val (congrFun (Option.some.inj hj') ⟨1, Nat.one_lt_two⟩))
  exact hq h.symm

/-! ## The entry scatter -/

/-- The index array has one axis, the index vector's: the scatter-indices index at which component `c` of
    the start index is read is `c` itself. -/
theorem ent_siIdx (j : S_.Idx) (c : Fin scatter_S1x128_S2_S__n_01_01_0.scatterDimsToOperandDims.length) (k : Fin 2)
    (hk : c.val = k.val) : scatter_S1x128_S2_S__n_01_01_0.siIdx j c = ix1 k := by
  funext b
  match b with
  | ⟨0, hb0⟩ =>
    unfold ScatterDims.siIdx
    have hb : (⟨0, hb0⟩ : Fin S2.rank).val = scatter_S1x128_S2_S__n_01_01_0.indexVectorDim := rfl
    rw [dif_pos hb]
    exact Fin.ext hk

/-- The row axis is the first the map `[0, 1]` names: the window starts at the row the first index word names. -/
theorem ent_start0 (idx : IVec S2 32) (j : S_.Idx) :
    scatter_S1x128_S2_S__n_01_01_0.start j idx ⟨0, by decide⟩ = (idx (ix1 0)).toInt := by
  unfold ScatterDims.start
  have h : (⟨0, by decide⟩ : Fin S1x128.rank) ∈ scatter_S1x128_S2_S__n_01_01_0.scatterDimsToOperandDims := by
    show (⟨0, by decide⟩ : Fin 2) ∈ ([0, 1] : List (Fin 2)); decide
  rw [dif_pos h]
  refine congrArg (fun k => (idx k).toInt) (ent_siIdx j _ 0 ?_)
  rfl

/-- The column axis is the second the map names: the window starts at the column the second index word names. -/
theorem ent_start1 (idx : IVec S2 32) (j : S_.Idx) :
    scatter_S1x128_S2_S__n_01_01_0.start j idx ⟨1, by decide⟩ = (idx (ix1 1)).toInt := by
  unfold ScatterDims.start
  have h : (⟨1, by decide⟩ : Fin S1x128.rank) ∈ scatter_S1x128_S2_S__n_01_01_0.scatterDimsToOperandDims := by
    show (⟨1, by decide⟩ : Fin 2) ∈ ([0, 1] : List (Fin 2)); decide
  rw [dif_pos h]
  refine congrArg (fun k => (idx k).toInt) (ent_siIdx j _ 1 ?_)
  rfl

/-- Both operand axes are inserted: the window coordinate on the rows is `0`. -/
theorem ent_window0 (j : S_.Idx) : scatter_S1x128_S2_S__n_01_01_0.window j ⟨0, by decide⟩ = 0 := by
  unfold ScatterDims.window
  have h : ¬ ((⟨0, by decide⟩ : Fin 2) ∈ S1x128.kept ([0, 1] : List (Fin 2))) := by decide
  exact dif_neg h

/-- Both operand axes are inserted: the window coordinate on the columns is `0`. -/
theorem ent_window1 (j : S_.Idx) : scatter_S1x128_S2_S__n_01_01_0.window j ⟨1, by decide⟩ = 0 := by
  unfold ScatterDims.window
  have h : ¬ ((⟨1, by decide⟩ : Fin 2) ∈ S1x128.kept ([0, 1] : List (Fin 2))) := by decide
  exact dif_neg h

/-- The entry scatter's result index: with the row word `0` and the column word naming `cv`, the update
    lands on `(0, cv)`. -/
theorem ent_resultIdx (idx : IVec S2 32) (cw : BitVec 32) (cv : Fin 128) (hc : cw.toInt = (cv.val : Int))
    (h0 : idx (ix1 0) = 0#32) (h1 : idx (ix1 1) = cw) (j : S_.Idx) :
    scatter_S1x128_S2_S__n_01_01_0.resultIdx? j idx = some (ix2 0 cv) := by
  have e0 : scatter_S1x128_S2_S__n_01_01_0.start j idx ⟨0, by decide⟩
      + (scatter_S1x128_S2_S__n_01_01_0.window j ⟨0, by decide⟩ : Int) = (((0 : Fin 1)).val : Int) := by
    rw [ent_start0, ent_window0, h0]; rfl
  have e1 : scatter_S1x128_S2_S__n_01_01_0.start j idx ⟨1, by decide⟩
      + (scatter_S1x128_S2_S__n_01_01_0.window j ⟨1, by decide⟩ : Int) = (cv.val : Int) := by
    rw [ent_start1, ent_window1, h1, hc]; omega
  have hv := cv.isLt
  unfold ScatterDims.resultIdx?
  have hall : ∀ a : Fin S1x128.rank,
      0 ≤ scatter_S1x128_S2_S__n_01_01_0.start j idx a + (scatter_S1x128_S2_S__n_01_01_0.window j a : Int)
      ∧ scatter_S1x128_S2_S__n_01_01_0.start j idx a + (scatter_S1x128_S2_S__n_01_01_0.window j a : Int)
        < (S1x128.size a : Int) := by
    intro a
    match a with
    | ⟨0, _⟩ => rw [e0]; show (0 : Int) ≤ ((0 : Nat) : Int) ∧ ((0 : Nat) : Int) < ((1 : Nat) : Int); omega
    | ⟨1, _⟩ => rw [e1]; show (0 : Int) ≤ cv.val ∧ (cv.val : Int) < ((128 : Nat) : Int); omega
  rw [dif_pos hall]
  refine congrArg some (idx2_eq_of_val _ 0 cv ?_ ?_)
  · exact (congrArg Int.toNat e0).trans (Int.toNat_natCast _)
  · exact (congrArg Int.toNat e1).trans (Int.toNat_natCast _)

/-- The entry the index words name is the update: with the row word `0`, the entry scatter read at
    `(0, cv)` is the one scalar update (the update shape has a single index). -/
theorem entry_hit {α : Type} (x : S1x128.Idx → α) (idx : IVec S2 32) (upd : S_.Idx → α) (cw : BitVec 32) (cv : Fin 128)
    (hc : cw.toInt = (cv.val : Int)) (h0 : idx (ix1 0) = 0#32) (h1 : idx (ix1 1) = cw) :
    Host.scatter scatter_S1x128_S2_S__n_01_01_0 (fun _ b => b) x idx upd (ix2 0 cv) = upd ix0 := by
  refine ScatterRead.scatter_set_apply_of_unique _ x idx upd (ix2 0 cv) ix0 (ent_resultIdx idx cw cv hc h0 h1 ix0) ?_
  intro j' _
  exact eq_ix0 j'

/-- Every other entry is the operand's: the entry scatter read at `(0, q)` with `q` not the column the
    second index word names is the operand's element. -/
theorem entry_miss {α : Type} (x : S1x128.Idx → α) (idx : IVec S2 32) (upd : S_.Idx → α) (cw : BitVec 32) (cv : Fin 128)
    (hc : cw.toInt = (cv.val : Int)) (h0 : idx (ix1 0) = 0#32) (h1 : idx (ix1 1) = cw) (q : Fin 128) (hq : q ≠ cv) :
    Host.scatter scatter_S1x128_S2_S__n_01_01_0 (fun _ b => b) x idx upd (ix2 0 q) = x (ix2 0 q) := by
  refine ScatterRead.scatter_apply_of_not_hit _ _ x idx upd (ix2 0 q) ?_
  intro j' hj'
  rw [ent_resultIdx idx cw cv hc h0 h1 j'] at hj'
  have h : cv = q := Fin.ext (congrArg Fin.val (congrFun (Option.some.inj hj') ⟨1, Nat.one_lt_two⟩))
  exact hq h.symm

end Cert.KernelIdeal.ScatterCols
-- ==== Proof.HostPrefix.lean ====
/-
  The four operand arrays the host prepares before the kernel runs, read at an index.

  Before the kernel, the host casts the embedding matrix to the 16-bit format (the identity over the extended reals),
  reshapes the 512 embedding biases into a 1 × 512 row, builds the packed 512 × 128 projection matrix — zeros, then
  column 0 set to the local weight vector and column 1 to the neighbour weight vector — and casts it, and builds the
  1 × 128 projection bias row — zeros, then entry (0,0) set to the local bias and entry (0,1) to the neighbour bias.
  So: the matrix the kernel sees is W_emb; the row's lane j is b_emb[j]; the packed matrix's column 0 is w_local and
  column 1 is w_neigh; the packed bias's lanes 0 and 1 are b_local and b_neigh.
-/
import proofs.«158158_j80161269612942_1_alg».proof.Proof.Gen.KernelIdeal.Frame
import proofs.«158158_j80161269612942_1_alg».proof.Proof.ScatterCols
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.HostPrefix

open Idealize.ShloMosaic Idealize.ShloMosaic.TcCoe Idealize.ShloMosaic.ValueIdx Idealize.SL.Sem Idealize.ShloMosaic.StableHlo
open Cert.KernelIdeal Cert.KernelIdeal.Gen Cert.KernelIdeal.ScatterCols

variable (m : (ℓ : Loc nD τ sig) → Buf (Elt Ideal) ℓ)

/-! ## The arrays as terms of the arguments -/

/-- The embedding matrix as the kernel finds it: the argument, cast. -/
theorem emb_matrix_term (c : Dev nD) : @Eq (S512x512.Idx → EReal) (V m c main_v0)
    (truncf (F := Ideal) (s := S512x512) (φ := .f32) .bf16 (m ((c.tc : Thread nD τ).loc main_arg3)) Facts₀.bitsLt_bf16_f32) := by
  dsimp only [V, V0]
  simp only [hostOps0, List.flatten_cons, List.flatten_nil, List.append_nil, List.cons_append, List.nil_append]
  after_results

/-- The embedding bias row as the kernel finds it: the argument, reshaped. -/
theorem emb_bias_term (c : Dev nD) : (V m c main_v1 : S1x512.Idx → EReal)
    = shapeCast S1x512 (m ((c.tc : Thread nD τ).loc main_arg4) : S512.Idx → EReal) Facts₀.shapeCasts_S512_S1x512 := by
  dsimp only [V, V0]
  simp only [hostOps0, List.flatten_cons, List.flatten_nil, List.append_nil, List.cons_append, List.nil_append]
  after_results
  rfl

/-- The zero 512 × 128 matrix the two columns are written into. -/
abbrev zeros512x128 : S512x128.Idx → EReal := broadcastInDim S512x128 ![] Facts₀.bcast_S_S512x128 (constant (F := Ideal) S_ .f32 0x00000000#32)
/-- The one-component index vector naming column `w`. -/
abbrev colIdx (w : BitVec 32) : IVec S1 32 := broadcastInDim S1 ![] Facts₀.bcast_S_S1 (constantI S_ 32 w)

set_option maxHeartbeats 4000000 in
/-- The packed projection matrix as the kernel finds it. -/
theorem proj_matrix_term (c : Dev nD) : (V m c main_v9 : S512x128.Idx → EReal)
    = truncf .bf16 (Host.scatter scatter_S512x128_S1_S512_0_1_1_0 (fun _ b => b)
        (Host.scatter scatter_S512x128_S1_S512_0_1_1_0 (fun _ b => b) zeros512x128 (colIdx 0#32)
          (shapeCast S512 (m ((c.tc : Thread nD τ).loc main_arg5) : S512x1.Idx → EReal) Facts₀.shapeCasts_S512x1_S512))
        (colIdx 1#32)
        (shapeCast S512 (m ((c.tc : Thread nD τ).loc main_arg7) : S512x1.Idx → EReal) Facts₀.shapeCasts_S512x1_S512) : FVec Ideal S512x128 .f32)
      Facts₀.bitsLt_bf16_f32 := by
  dsimp only [V, V0]
  simp only [hostOps0, List.flatten_cons, List.flatten_nil, List.append_nil, List.cons_append, List.nil_append]
  after_results
  rfl

/-- The zero 1 × 128 row the two biases are written into. -/
abbrev zeros1x128 : S1x128.Idx → EReal := broadcastInDim S1x128 ![] Facts₀.bcast_S_S1x128 (constant (F := Ideal) S_ .f32 0x00000000#32)
/-- The two-component index vector (row `a`, lane `b`). -/
abbrev entryIdx (a b : BitVec 32) : IVec S2 32 :=
  concatenate S2 0 [⟨S1, colIdx a⟩, ⟨S1, colIdx b⟩] Facts₀.concatenates_S1_S1_S2_d0

set_option maxHeartbeats 4000000 in
/-- The packed projection bias row as the kernel finds it. -/
theorem proj_bias_term (c : Dev nD) : (V m c main_v20 : S1x128.Idx → EReal)
    = Host.scatter scatter_S1x128_S2_S__n_01_01_0 (fun _ b => b)
        (Host.scatter scatter_S1x128_S2_S__n_01_01_0 (fun _ b => b) zeros1x128 (entryIdx 0#32 0#32)
          (shapeCast S_ (m ((c.tc : Thread nD τ).loc main_arg6) : S1.Idx → EReal) Facts₀.shapeCasts_S1_S_))
        (entryIdx 0#32 1#32)
        (shapeCast S_ (m ((c.tc : Thread nD τ).loc main_arg8) : S1.Idx → EReal) Facts₀.shapeCasts_S1_S_) := by
  dsimp only [V, V0]
  simp only [hostOps0, List.flatten_cons, List.flatten_nil, List.append_nil, List.cons_append, List.nil_append]
  after_results
  rfl

/-! ## The arrays read at an index -/

/-- The embedding matrix the kernel sees is the argument. -/
theorem emb_matrix (c : Dev nD) : @Eq (S512x512.Idx → EReal) (V m c main_v0) (m ((c.tc : Thread nD τ).loc main_arg3)) :=
  (emb_matrix_term m c).trans rfl

/-- Lane `j` of the bias row is the argument's entry `j`. -/
theorem emb_bias (c : Dev nD) (j : Fin 512) :
    (V m c main_v1 : S1x512.Idx → EReal) (ix2 0 j) = (m ((c.tc : Thread nD τ).loc main_arg4) : S512.Idx → EReal) (ix1 j) := by
  rw [emb_bias_term]
  exact shapeCast_apply _ _ (ix2 0 j) (ix1 j) (by rw [Shape.rowMajor_val_one, Shape.rowMajor_val_two]; show j.val = 0 * 512 + j.val; omega)

/-- A 512 × 1 column reshaped to a 512-vector, at `j`, is the column's entry (j, 0). -/
theorem col_reshape_apply (v : S512x1.Idx → EReal) (h : S512x1.ShapeCasts S512) (j : Fin 512) :
    shapeCast S512 v h (ix1 j) = v (ix2 j (0 : Fin 1)) :=
  shapeCast_apply _ _ (ix1 j) (ix2 j 0) (by rw [Shape.rowMajor_val_one, Shape.rowMajor_val_two]; show j.val * 1 + 0 = j.val; omega)

/-- A one-entry vector reshaped to a scalar is the entry. -/
theorem scalar_reshape_apply (v : S1.Idx → EReal) (h : S1.ShapeCasts S_) : shapeCast S_ v h ix0 = v (ix1 (0 : Fin 1)) :=
  shapeCast_apply _ _ ix0 (ix1 0) (by
    have h2 : (S_.rowMajor ix0).val < 1 :=
      lt_of_lt_of_eq (S_.rowMajor ix0).isLt (Shape.numel_eq_one (s := S_) (fun a => a.elim0))
    rw [Shape.rowMajor_val_one]
    exact (Nat.lt_one_iff.mp h2).symm)

/-- Column 0 of the packed projection matrix is the local weight vector. -/
theorem proj_matrix_col0 (c : Dev nD) (j : Fin 512) :
    (V m c main_v9 : S512x128.Idx → EReal) (ix2 j (0 : Fin 128)) = (m ((c.tc : Thread nD τ).loc main_arg5) : S512x1.Idx → EReal) (ix2 j (0 : Fin 1)) := by
  rw [proj_matrix_term, truncf_apply,
    col_miss _ (colIdx 1#32) _ 1#32 (1 : Fin 128) (by decide) (fun _ => rfl) j (0 : Fin 128) (by decide),
    col_hit _ (colIdx 0#32) _ 0#32 (0 : Fin 128) (by decide) (fun _ => rfl) j, col_reshape_apply]

/-- Column 1 of the packed projection matrix is the neighbour weight vector. -/
theorem proj_matrix_col1 (c : Dev nD) (j : Fin 512) :
    (V m c main_v9 : S512x128.Idx → EReal) (ix2 j (1 : Fin 128)) = (m ((c.tc : Thread nD τ).loc main_arg7) : S512x1.Idx → EReal) (ix2 j (0 : Fin 1)) := by
  rw [proj_matrix_term, truncf_apply,
    col_hit _ (colIdx 1#32) _ 1#32 (1 : Fin 128) (by decide) (fun _ => rfl) j, col_reshape_apply]

/-- Lane 0 of the packed projection bias is the local bias. -/
theorem proj_bias_lane0 (c : Dev nD) :
    (V m c main_v20 : S1x128.Idx → EReal) (ix2 0 (0 : Fin 128)) = (m ((c.tc : Thread nD τ).loc main_arg6) : S1.Idx → EReal) (ix1 (0 : Fin 1)) := by
  rw [proj_bias_term,
    entry_miss _ (entryIdx 0#32 1#32) _ 1#32 (1 : Fin 128) (by decide) rfl rfl (0 : Fin 128) (by decide),
    entry_hit _ (entryIdx 0#32 0#32) _ 0#32 (0 : Fin 128) (by decide) rfl rfl, scalar_reshape_apply]

/-- Lane 1 of the packed projection bias is the neighbour bias. -/
theorem proj_bias_lane1 (c : Dev nD) :
    (V m c main_v20 : S1x128.Idx → EReal) (ix2 0 (1 : Fin 128)) = (m ((c.tc : Thread nD τ).loc main_arg8) : S1.Idx → EReal) (ix1 (0 : Fin 1)) := by
  rw [proj_bias_term,
    entry_hit _ (entryIdx 0#32 1#32) _ 1#32 (1 : Fin 128) (by decide) rfl rfl, scalar_reshape_apply]

end Cert.KernelIdeal.HostPrefix

end
-- ==== Proof.RefValue.lean ====
/-
  The reference's two score columns, read at a node, and its result as the aggregation of them.

  The reference computes the embedding  X · W + b  for all nodes, then the local scores  emb · w_local + b_local  and the
  neighbour scores  emb · w_neigh + b_neigh  (each a 100000 × 1 column), and aggregates. Read one operation at a time
  at node `n`, each column's entry is the attention score of `n` for that column's vector and scalar bias.
-/
import proofs.«158158_j80161269612942_1_alg».proof.Proof.Gen.ReferenceIdeal.Read
import proofs.«158158_j80161269612942_1_alg».proof.Proof.Spec
import proofs.«158158_j80161269612942_1_alg».proof.Proof.Aggregate
import Idealize.ShloMosaic.Lib.ValueIdx

noncomputable section

namespace Cert.ReferenceIdeal.RefValue

open Idealize.ShloMosaic Idealize.ShloMosaic.ValueIdx Cert.ReferenceIdeal Cert.ReferenceIdeal.Read Cert.Spec

theorem lidx_v0 (n : Fin 100000) (j k : Fin 512) : lidx_main_v0 (ix2 n j) k = ix2 n k :=
  funext fun a => Fin.ext (by match a with | ⟨0, _⟩ => rfl | ⟨1, _⟩ => rfl)
theorem ridx_v0 (n : Fin 100000) (j k : Fin 512) : ridx_main_v0 (ix2 n j) k = ix2 k j :=
  funext fun a => Fin.ext (by match a with | ⟨0, _⟩ => rfl | ⟨1, _⟩ => rfl)
theorem idx_v1v2 (n : Fin 100000) (j : Fin 512) : idx_main_v1 (idx_main_v2 (ix2 n j)) = ix1 j :=
  funext fun a => Fin.ext (by match a with | ⟨0, _⟩ => rfl)
theorem lidx_v4 (n : Fin 100000) (k : Fin 512) : lidx_main_v4 (ix2 n (0 : Fin 1)) k = ix2 n k :=
  funext fun a => Fin.ext (by match a with | ⟨0, _⟩ => rfl | ⟨1, _⟩ => rfl)
theorem ridx_v4 (n : Fin 100000) (k : Fin 512) : ridx_main_v4 (ix2 n (0 : Fin 1)) k = ix2 k (0 : Fin 1) :=
  funext fun a => Fin.ext (by match a with | ⟨0, _⟩ => rfl | ⟨1, _⟩ => rfl)
theorem idx_v5v6 (n : Fin 100000) : idx_main_v5 (idx_main_v6 (ix2 n (0 : Fin 1))) = ix1 (0 : Fin 1) :=
  funext fun a => Fin.ext (by match a with | ⟨0, _⟩ => rfl)
theorem lidx_v8 (n : Fin 100000) (k : Fin 512) : lidx_main_v8 (ix2 n (0 : Fin 1)) k = ix2 n k :=
  funext fun a => Fin.ext (by match a with | ⟨0, _⟩ => rfl | ⟨1, _⟩ => rfl)
theorem ridx_v8 (n : Fin 100000) (k : Fin 512) : ridx_main_v8 (ix2 n (0 : Fin 1)) k = ix2 k (0 : Fin 1) :=
  funext fun a => Fin.ext (by match a with | ⟨0, _⟩ => rfl | ⟨1, _⟩ => rfl)
theorem idx_v9v10 (n : Fin 100000) : idx_main_v9 (idx_main_v10 (ix2 n (0 : Fin 1))) = ix1 (0 : Fin 1) :=
  funext fun a => Fin.ext (by match a with | ⟨0, _⟩ => rfl)

/-- The embedding stage at node `n`, entry `j`. -/
theorem emb_apply (x0 : S100000x512.Idx → EReal) (x3 : S512x512.Idx → EReal) (x4 : S512.Idx → EReal) (n : Fin 100000) (j : Fin 512) :
    val_main_v3 (F := Ideal) x0 x3 x4 (ix2 n j) = embAt x0 x3 (fun j => x4 (ix1 j)) n j := by
  rw [val_main_v3_apply, val_main_v0_apply, val_main_v2_apply, val_main_v1_apply, idx_v1v2]
  unfold embAt
  refine congrArg (· + x4 (ix1 j)) (Finset.sum_congr rfl fun k _ => ?_)
  rw [lidx_v0, ridx_v0]

/-- The local-score column at node `n`. -/
theorem local_apply (x0 : S100000x512.Idx → EReal) (x3 : S512x512.Idx → EReal) (x4 : S512.Idx → EReal) (x5 : S512x1.Idx → EReal)
    (x6 : S1.Idx → EReal) (n : Fin 100000) :
    val_main_v7 (F := Ideal) x0 x3 x4 x5 x6 (ix2 n (0 : Fin 1))
      = scoreAt x0 x3 (fun j => x4 (ix1 j)) (fun j => x5 (ix2 j (0 : Fin 1))) (x6 (ix1 (0 : Fin 1))) n := by
  rw [val_main_v7_apply, val_main_v4_apply, val_main_v6_apply, val_main_v5_apply, idx_v5v6]
  unfold scoreAt
  refine congrArg (· + x6 (ix1 (0 : Fin 1))) (Finset.sum_congr rfl fun k _ => ?_)
  rw [lidx_v4, ridx_v4, emb_apply]

/-- The neighbour-score column at node `n`. -/
theorem neigh_apply (x0 : S100000x512.Idx → EReal) (x3 : S512x512.Idx → EReal) (x4 : S512.Idx → EReal) (x7 : S512x1.Idx → EReal)
    (x8 : S1.Idx → EReal) (n : Fin 100000) :
    val_main_v11 (F := Ideal) x0 x3 x4 x7 x8 (ix2 n (0 : Fin 1))
      = scoreAt x0 x3 (fun j => x4 (ix1 j)) (fun j => x7 (ix2 j (0 : Fin 1))) (x8 (ix1 (0 : Fin 1))) n := by
  rw [val_main_v11_apply, val_main_v8_apply, val_main_v10_apply, val_main_v9_apply, idx_v9v10]
  unfold scoreAt
  refine congrArg (· + x8 (ix1 (0 : Fin 1))) (Finset.sum_congr rfl fun k _ => ?_)
  rw [lidx_v8, ridx_v8, emb_apply]

/-- The reference's result is the aggregation of its two score columns over the two edge lists. -/
theorem result_eq (x0 : S100000x512.Idx → EReal) (x1 x2 : IVec S3200000 32) (x3 : S512x512.Idx → EReal) (x4 : S512.Idx → EReal)
    (x5 : S512x1.Idx → EReal) (x6 : S1.Idx → EReal) (x7 : S512x1.Idx → EReal) (x8 : S1.Idx → EReal) :
    val_main_v22 (F := Ideal) x0 x1 x2 x3 x4 x5 x6 x7 x8
      = aggregate gather_S100000x1_S3200000x1_S3200000x1_1_0_n_n_0_1_11 scatter_S100000x1_S3200000x1_S3200000x1_1_0_0_1
          Facts₀.bcast_S_S100000x1 Facts₀.bcast_S3200000_S3200000x1_0 Facts₀.bcast_S_S3200000
          (val_main_v7 (F := Ideal) x0 x3 x4 x5 x6) (val_main_v11 (F := Ideal) x0 x3 x4 x7 x8) x1 x2 := rfl

end Cert.ReferenceIdeal.RefValue

end
-- ==== Proof.Bridge.lean ====
/-
  The two programs' score columns are the same functions of the arguments, so their results are equal.

  The kernel program's local-score column is column 0 of the array the kernel wrote: at node `n` the score of `n`
  against column 0 of the packed projection matrix with lane 0 of the packed bias — that is, against w_local with
  b_local (the host prefix read at an index). The reference's local-score column at `n` is the same score, read one
  host operation at a time. Likewise column 1 and the neighbour scores. Both programs then aggregate their two columns
  over the same two edge lists by the same host operations.
-/
import proofs.«158158_j80161269612942_1_alg».proof.Defs
import proofs.«158158_j80161269612942_1_alg».proof.Proof.HostPrefix
import proofs.«158158_j80161269612942_1_alg».proof.Proof.Tail
import proofs.«158158_j80161269612942_1_alg».proof.Proof.RefValue
import Idealize.ShloMosaic.Lib.Pipeline.Value
import Idealize.ShloMosaic.Lib.ValueIdx

noncomputable section

namespace Cert.Proof.Bridge

open Idealize.ShloMosaic Idealize.ShloMosaic.TcCoe Idealize.ShloMosaic.ValueIdx Idealize.SL.Sem
open Cert.KernelIdeal Cert.KernelIdeal.Gen Cert.KernelIdeal.ArrayValue Cert.KernelIdeal.TailValue Cert.KernelIdeal.HostPrefix Cert.Spec

variable (m : (ℓ : Loc nD τ sig) → Buf (Elt Ideal) ℓ)

/-- A score depends on its vector and bias only through their entries. -/
theorem scoreAt_congr {X X' : (⟨2, ![100000, 512]⟩ : Shape).Idx → EReal} {W W' : (⟨2, ![512, 512]⟩ : Shape).Idx → EReal}
    {b b' v v' : Fin 512 → EReal} {β β' : EReal} (hX : X = X') (hW : W = W') (hb : ∀ j, b j = b' j) (hv : ∀ j, v j = v' j)
    (hβ : β = β') (n : Fin 100000) : scoreAt X W b v β n = scoreAt X' W' b' v' β' n := by
  subst hX hW hβ
  rw [show b = b' from funext hb, show v = v' from funext hv]

/-- The score function of five arrays, at row `n` and lane `q`. -/
theorem scores_apply (X : S100000x512.Idx → EReal) (W : S512x512.Idx → EReal) (B : S1x512.Idx → EReal) (WP : S512x128.Idx → EReal)
    (BP : S1x128.Idx → EReal) (n : Fin 100000) (q : Fin 128) :
    scores X W B WP BP (ix2 n q) = scoreAt X W (fun j => B (ix2 0 j)) (fun j => WP (ix2 j q)) (BP (ix2 0 q)) n := rfl

/-- Column 0 of a 100000 × 128 array, at node `n`. -/
theorem slice0_apply (A : S100000x128.Idx → EReal) (h : S100000x128.Slices ![0, 0] S100000x1) (n : Fin 100000) :
    extractStridedSlice S100000x1 ![0, 0] A h (ix2 n (0 : Fin 1)) = A (ix2 n (0 : Fin 128)) :=
  extractStridedSlice_apply _ A h (ix2 n 0) (ix2 n 0) (fun a => match a with
    | ⟨0, _⟩ => by show n.val = 0 + n.val; omega
    | ⟨1, _⟩ => by show (0 : Nat) = 0 + 0; rfl)

/-- Column 1 of a 100000 × 128 array, at node `n`. -/
theorem slice1_apply (A : S100000x128.Idx → EReal) (h : S100000x128.Slices ![0, 1] S100000x1) (n : Fin 100000) :
    extractStridedSlice S100000x1 ![0, 1] A h (ix2 n (0 : Fin 1)) = A (ix2 n (1 : Fin 128)) :=
  extractStridedSlice_apply _ A h (ix2 n 0) (ix2 n 1) (fun a => match a with
    | ⟨0, _⟩ => by show n.val = 0 + n.val; omega
    | ⟨1, _⟩ => by show (1 : Nat) = 1 + 0; rfl)

/-- Every index of a 100000 × 1 column is (n, 0). -/
theorem col_idx (i : S100000x1.Idx) : ∃ n : Fin 100000, i = ix2 n (0 : Fin 1) :=
  ⟨⟨(i 0).val, idx2_lt0 i⟩, (eq_ix2 i).trans (congrArg (ix2 (⟨(i 0).val, idx2_lt0 i⟩ : Fin 100000)) (Subsingleton.elim (α := Fin 1) _ _))⟩

/-- The kernel program's local-score column is the reference's, as functions of the kernel program's arguments. -/
theorem localCol_eq (c : Dev nD) :
    localCol m c = Cert.ReferenceIdeal.Read.val_main_v7 (F := Ideal)
      (m ((c.tc : Thread nD τ).loc main_arg0)) (m ((c.tc : Thread nD τ).loc main_arg3)) (m ((c.tc : Thread nD τ).loc main_arg4))
      (m ((c.tc : Thread nD τ).loc main_arg5)) (m ((c.tc : Thread nD τ).loc main_arg6)) := by
  funext i
  obtain ⟨n, rfl⟩ := col_idx i
  rw [Cert.ReferenceIdeal.RefValue.local_apply]
  refine (slice0_apply _ _ n).trans ((scores_apply _ _ _ _ _ n 0).trans ?_)
  exact scoreAt_congr (V_main_arg0 m c) (emb_matrix m c) (emb_bias m c) (proj_matrix_col0 m c) (proj_bias_lane0 m c) n

/-- The kernel program's neighbour-score column is the reference's. -/
theorem neighCol_eq (c : Dev nD) :
    neighCol m c = Cert.ReferenceIdeal.Read.val_main_v11 (F := Ideal)
      (m ((c.tc : Thread nD τ).loc main_arg0)) (m ((c.tc : Thread nD τ).loc main_arg3)) (m ((c.tc : Thread nD τ).loc main_arg4))
      (m ((c.tc : Thread nD τ).loc main_arg7)) (m ((c.tc : Thread nD τ).loc main_arg8)) := by
  funext i
  obtain ⟨n, rfl⟩ := col_idx i
  rw [Cert.ReferenceIdeal.RefValue.neigh_apply]
  refine (slice1_apply _ _ n).trans ((scores_apply _ _ _ _ _ n 1).trans ?_)
  exact scoreAt_congr (V_main_arg0 m c) (emb_matrix m c) (emb_bias m c) (proj_matrix_col1 m c) (proj_bias_lane1 m c) n

/-- The reference's result over the kernel program's arguments is the kernel program's result. -/
theorem result_eq (c : Dev nD) :
    Cert.ReferenceIdeal.Read.val_main_v22 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
    = aggregate gather_S100000x1_S3200000x1_S3200000x1_1_0_n_n_0_1_11 scatter_S100000x1_S3200000x1_S3200000x1_1_0_0_1
        Facts₀.bcast_S_S100000x1 Facts₀.bcast_S3200000_S3200000x1_0 Facts₀.bcast_S_S3200000
        (localCol m c) (neighCol m c)
        (m ((c.tc : Thread nD τ).loc main_arg1)) (m ((c.tc : Thread nD τ).loc main_arg2)) := by
  rw [Cert.ReferenceIdeal.RefValue.result_eq, localCol_eq m c, neighCol_eq m c]
  rfl

end Cert.Proof.Bridge

end
-- ==== Proof.lean ====
/-
  The certificate's five claims.

  The kernel program computes, in one kernel tiled over 50 blocks of 2000 nodes, the embedding
  X · W_emb + b_emb and its product with a packed 512 × 128 matrix whose columns 0 and 1 are w_local and w_neigh (plus a
  packed bias whose lanes 0 and 1 are b_local and b_neigh); the host then takes columns 0 and 1 as the local and
  neighbour scores and aggregates the neighbour scores along the edges. The reference computes the same embedding and
  the two score columns by three host matrix products, and aggregates by the same host operations.

  Over the extended reals the casts to the 16-bit format are the identity and a matrix product into a zero accumulator
  is the plain sum of products, so column 0 (column 1) of the kernel's array at node `n` and the reference's local
  (neighbour) score at `n` are literally the same double sum  Σ_j (Σ_k X[n,k]·W[k,j] + b[j]) · v[j] + β:  no law of
  arithmetic is used, hence no finiteness of the inputs either. Equal columns enter the shared aggregation; the
  results are equal.

  The three frames are the generated ones (the reference's is its generated run with the result dropped); the ideal
  pass rewrote nothing, so the kernel's idealization claim is trivial.
-/
import proofs.«158158_j80161269612942_1_alg».proof.Defs
import proofs.«158158_j80161269612942_1_alg».proof.Proof.Gen.Kernel
import proofs.«158158_j80161269612942_1_alg».proof.Proof.Gen.Kernel.Skeleton
import proofs.«158158_j80161269612942_1_alg».proof.Proof.Gen.Kernel.Launch
import proofs.«158158_j80161269612942_1_alg».proof.Proof.Gen.Kernel.Points
import proofs.«158158_j80161269612942_1_alg».proof.Proof.Gen.Kernel.Frame
import proofs.«158158_j80161269612942_1_alg».proof.Proof.Gen.KernelIdeal
import proofs.«158158_j80161269612942_1_alg».proof.Proof.Gen.KernelIdeal.Skeleton
import proofs.«158158_j80161269612942_1_alg».proof.Proof.Gen.KernelIdeal.Launch
import proofs.«158158_j80161269612942_1_alg».proof.Proof.Gen.KernelIdeal.Points
import proofs.«158158_j80161269612942_1_alg».proof.Proof.Gen.KernelIdeal.Frame
import proofs.«158158_j80161269612942_1_alg».proof.Proof.Gen.ReferenceIdeal
import proofs.«158158_j80161269612942_1_alg».proof.Proof.Gen.Pre_finite_inputs
import proofs.«158158_j80161269612942_1_alg».proof.Proof.Gen.ReferenceIdeal.Run
import proofs.«158158_j80161269612942_1_alg».proof.Proof.Gen.ReferenceIdeal.Read
import proofs.«158158_j80161269612942_1_alg».proof.Proof.Tail
import proofs.«158158_j80161269612942_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the aggregation of the same two score columns over the same two edge lists. -/
theorem algebraic : Cert.algebraic_KernelIdeal_ReferenceIdeal := by
  intro m ρ m' ρ' _ hagree
  refine ⟨_, Cert.KernelIdeal.TailValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8, Cert.ReferenceIdeal.Read.val_main_v22_eq]
  exact Cert.Proof.Bridge.result_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
